-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000x128 : Shape := ⟨2, ![625000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x625000 32) (main_arg2 : FVec F S625000x128 .f32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x128 .f32 := Host.absf main_arg2
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x625000 : Shape := ⟨2, ![2, 625000]⟩
abbrev S625000x128 : Shape := ⟨2, ![625000, 128]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S1x128 : Shape := ⟨2, ![1, 128]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 23
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S_, .f32⟩
  | .hbm, ⟨14, _⟩ => ⟨S50000x128, .f32⟩
  | .hbm, ⟨15, _⟩ => ⟨S625000x1, .i32⟩
  | .hbm, ⟨16, _⟩ => ⟨S50000x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x625000_S1x625000_1_0 : S2x625000.Slices ![1, 0] S1x625000
  shapeCasts_S1x625000_S625000 : S1x625000.ShapeCasts S625000
  bcast_S_S50000x128 : S_.BroadcastsInDim S50000x128 (![] : Fin 0 → Fin S50000x128.rank)
  bcast_S625000_S625000x1_0 : S625000.BroadcastsInDim S625000x1 (![0] : Fin 1 → Fin S625000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  scatter_S50000x128_S625000x1_S625000x128_1_0_0_1_wf : ScatterDims.WF S50000x128 S625000x1 S625000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000x128 : Shape := ⟨2, ![625000, 128]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S50000x256 : Shape := ⟨2, ![50000, 256]⟩
abbrev S1x128 : Shape := ⟨2, ![1, 128]⟩
abbrev S50000 : Shape := ⟨1, ![50000]⟩
abbrev S50000x1 : Shape := ⟨2, ![50000, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x128, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S_, .f32⟩
  | .hbm, ⟨14, _⟩ => ⟨S50000x128, .f32⟩
  | .hbm, ⟨15, _⟩ => ⟨S625000x1, .i32⟩
  | .hbm, ⟨16, _⟩ => ⟨S50000x128, .f32⟩
  | .hbm, ⟨17, _⟩ => ⟨S50000x256, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000, .f32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  slices_S2x625000_S1x625000_1_0 : S2x625000.Slices ![1, 0] S1x625000
  shapeCasts_S1x625000_S625000 : S1x625000.ShapeCasts S625000
  bcast_S_S50000x128 : S_.BroadcastsInDim S50000x128 (![] : Fin 0 → Fin S50000x128.rank)
  bcast_S625000_S625000x1_0 : S625000.BroadcastsInDim S625000x1 (![0] : Fin 1 → Fin S625000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S625000x1_S625000x128_1_0_0_1_wf : ScatterDims.WF S50000x128 S625000x1 S625000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowSpec.lean ====
/-
  One node's update, row by row, on the extended reals.

  A node's row of 128 features and the row of 128 features summed over the edges it receives are laid side by side
  (256 entries), sent through three dense layers — the first two followed by the rectifier — and the 128 outputs are
  normalised along the row (subtract the row's mean, divide by the square root of the row's variance plus a small
  constant, scale and shift entrywise); the node's own features are added back. Every step reads one row only, so the
  whole array of 50000 rows is this row function applied to each row.

  The three constants that occur (the rectifier's floor, the row length that the sums are divided by, and the small
  constant under the square root) are kept as the words the programs print; nothing here depends on their values.
-/
import Idealize.ShloMosaic.Lib.ValueIdx
import Idealize.ShloMosaic.PureOps.Ideal.Laws

noncomputable section

namespace Cert.NodeUpdate

open Idealize.ShloMosaic Idealize.ShloMosaic.ValueIdx
open scoped BigOperators

/-! ## One row -/

/-- Two rows of 128 entries side by side: entries 0–127 are the first, entries 128–255 the second. -/
def catRow (u v : Fin 128 → EReal) : Fin 256 → EReal := fun c =>
  if h : c.val < 128 then u ⟨c.val, h⟩ else v ⟨c.val - 128, by have := c.isLt; omega⟩

/-- A dense layer on one row: entry `q` is the row against column `q` of the weights, plus the bias at `q`. -/
def dense {K N : ℕ} (W : Fin K → Fin N → EReal) (b : Fin N → EReal) (x : Fin K → EReal) : Fin N → EReal :=
  fun q => (∑ k : Fin K, x k * W k q) + b q

/-- The rectifier: each entry, or the floor `z` if that is larger. -/
def relu {N : ℕ} (z : EReal) (x : Fin N → EReal) : Fin N → EReal := fun q => max (x q) z

/-- Three dense layers, the rectifier after the first two. -/
def mlp (z : EReal) (W1 : Fin 256 → Fin 128 → EReal) (b1 : Fin 128 → EReal) (W2 : Fin 128 → Fin 128 → EReal)
    (b2 : Fin 128 → EReal) (W3 : Fin 128 → Fin 128 → EReal) (b3 : Fin 128 → EReal) (x : Fin 256 → EReal) :
    Fin 128 → EReal :=
  dense W3 b3 (relu z (dense W2 b2 (relu z (dense W1 b1 x))))

/-- The sum of a row divided by `n`. -/
def mean (n : EReal) (h : Fin 128 → EReal) : EReal := Ideal.div (∑ k : Fin 128, h k) n

/-- A row with its mean subtracted from every entry. -/
def centred (n : EReal) (h : Fin 128 → EReal) : Fin 128 → EReal := fun q => h q - mean n h

/-- The mean of the squares of the centred row. -/
def variance (n : EReal) (h : Fin 128 → EReal) : EReal := mean n fun k => centred n h k * centred n h k

/-- Normalisation along the row: the centred row times the reciprocal square root of the variance plus `e`, then
    scaled by `γ` and shifted by `β` entry by entry. -/
def norm (n e : EReal) (γ β : Fin 128 → EReal) (h : Fin 128 → EReal) : Fin 128 → EReal := fun q =>
  centred n h q * Ideal.rsqrt (variance n h + e) * γ q + β q

/-- One node's new row from its own row `u` and its received row `v`. -/
def rowOut (z n e : EReal) (W1 : Fin 256 → Fin 128 → EReal) (b1 : Fin 128 → EReal) (W2 : Fin 128 → Fin 128 → EReal)
    (b2 : Fin 128 → EReal) (W3 : Fin 128 → Fin 128 → EReal) (b3 γ β : Fin 128 → EReal) (u v : Fin 128 → EReal) :
    Fin 128 → EReal := fun q =>
  norm n e γ β (mlp z W1 b1 W2 b2 W3 b3 (catRow u v)) q + u q

/-! ## The whole array -/

/-- A matrix as a function of its index. -/
abbrev Mat (a b : ℕ) : Type := (⟨2, ![a, b]⟩ : Shape).Idx → EReal
/-- A vector as a function of its index. -/
abbrev Vect (a : ℕ) : Type := (⟨1, ![a]⟩ : Shape).Idx → EReal

/-- The rectifier's floor, as printed. -/
def floorW : EReal := Ideal.ofBits .f32 0x00000000#32
/-- The row length the sums are divided by, as printed. -/
def lenW : EReal := Ideal.ofBits .f32 0x43000000#32
/-- The small constant under the square root, as printed. -/
def epsW : EReal := Ideal.ofBits .f32 0x3727C5AC#32

/-- Entry `(r, q)` of the result: the row function of row `r` of the node features and of the received features. -/
def entry (node agg : Mat 50000 128) (W1 : Mat 256 128) (b1 : Vect 128) (W2 : Mat 128 128) (b2 : Vect 128)
    (W3 : Mat 128 128) (b3 γ β : Vect 128) (r : Fin 50000) (q : Fin 128) : EReal :=
  rowOut floorW lenW epsW (fun k c => W1 (ix2 k c)) (fun c => b1 (ix1 c)) (fun k c => W2 (ix2 k c))
    (fun c => b2 (ix1 c)) (fun k c => W3 (ix2 k c)) (fun c => b3 (ix1 c)) (fun c => γ (ix1 c)) (fun c => β (ix1 c))
    (fun c => node (ix2 r c)) (fun c => agg (ix2 r c)) q

/-- The result array: entry `i` is `entry` at the coordinates of `i`. -/
def G (node agg : Mat 50000 128) (W1 : Mat 256 128) (b1 : Vect 128) (W2 : Mat 128 128) (b2 : Vect 128)
    (W3 : Mat 128 128) (b3 γ β : Vect 128) : Mat 50000 128 := fun i =>
  entry node agg W1 b1 W2 b2 W3 b3 γ β ⟨(i 0).val, (i 0).isLt⟩ ⟨(i 1).val, (i 1).isLt⟩

/-- At an index given by its coordinates the result array is `entry` there. -/
theorem G_ix2 (node agg : Mat 50000 128) (W1 : Mat 256 128) (b1 : Vect 128) (W2 : Mat 128 128) (b2 : Vect 128)
    (W3 : Mat 128 128) (b3 γ β : Vect 128) (r : Fin 50000) (q : Fin 128) :
    G node agg W1 b1 W2 b2 W3 b3 γ β (ix2 r q) = entry node agg W1 b1 W2 b2 W3 b3 γ β r q := rfl

end Cert.NodeUpdate

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelRow.lean ====
/-
  The kernel's block, entry by entry.

  For one block of 2000 node rows, the value the body stores at row `p`, column `q` is the row function of
  `RowSpec` applied to row `p` of the node block and row `p` of the received-features block: the two rows side by side
  contracted against the first weight matrix (a product into a zero accumulator is the plain sum over the 256 columns),
  the bias row laid along every row, the rectifier against the zero word, twice more with 128 columns, and then the
  normalisation along the row, whose two sums over the row are lane sums from the zero word read at row `p`.
  Changing a value's float format does nothing on the extended reals.
-/
import proofs.«173013_j22840636080715_1_alg».proof.Proof.Gen.KernelIdeal.Value
import proofs.«173013_j22840636080715_1_alg».proof.Proof.RowSpec
import proofs.«173013_j22840636080715_1_alg».proof.Proof.LibDenseRows
import proofs.«173013_j22840636080715_1_alg».proof.Proof.LibRowLift
import proofs.«173013_j22840636080715_1_alg».proof.Proof.LibColumnLayout

noncomputable section

namespace Cert.NodeUpdate.Kernel

open Idealize.ShloMosaic Idealize.ShloMosaic.ValueIdx Idealize.ShloMosaic.TcCoe
open Cert.KernelIdeal Cert.KernelIdeal.Gen Cert.KernelIdeal.Facts₀
open Cert.NodeUpdate
open scoped BigOperators

/-! ## The two contractions keep the left operand's row and the right operand's column -/

/-- The first layer's contraction, 256 columns against 256 rows. -/
abbrev D1 := dot_S2000x256_S256x128_S2000x128_1_0_0_1_n_n
/-- The second and third layers' contraction, 128 columns against 128 rows. -/
abbrev D2 := dot_S2000x128_S128x128_S2000x128_1_0_0_1_n_n

theorem D1_row (j : S2000x128.Idx) (k : D1.contr.Idx) : (D1.lhsIdx j k (0 : Fin 2)).val = (j (0 : Fin 2)).val := by
  unfold DotDims.lhsIdx
  rw [dif_neg (show ¬(0 : Fin S2000x256.rank) ∈ D1.lhsBatch by decide),
    dif_pos (show (0 : Fin S2000x256.rank) ∈ D1.lhsNonContracting by decide)]
  rfl

theorem D1_col (j : S2000x128.Idx) (k : D1.contr.Idx) : (D1.rhsIdx j k (1 : Fin 2)).val = (j (1 : Fin 2)).val := by
  unfold DotDims.rhsIdx
  rw [dif_neg (show ¬(1 : Fin S256x128.rank) ∈ D1.rhsBatch by decide),
    dif_pos (show (1 : Fin S256x128.rank) ∈ D1.rhsNonContracting by decide)]
  rfl

theorem D2_row (j : S2000x128.Idx) (k : D2.contr.Idx) : (D2.lhsIdx j k (0 : Fin 2)).val = (j (0 : Fin 2)).val := by
  unfold DotDims.lhsIdx
  rw [dif_neg (show ¬(0 : Fin S2000x128.rank) ∈ D2.lhsBatch by decide),
    dif_pos (show (0 : Fin S2000x128.rank) ∈ D2.lhsNonContracting by decide)]
  rfl

theorem D2_col (j : S2000x128.Idx) (k : D2.contr.Idx) : (D2.rhsIdx j k (1 : Fin 2)).val = (j (1 : Fin 2)).val := by
  unfold DotDims.rhsIdx
  rw [dif_neg (show ¬(1 : Fin S128x128.rank) ∈ D2.rhsBatch by decide),
    dif_pos (show (1 : Fin S128x128.rank) ∈ D2.rhsNonContracting by decide)]
  rfl

/-! ## The pieces, over arbitrary vectors -/

/-- Two blocks side by side, read at row `p`, are the two rows side by side. -/
theorem cat_apply (x y : FVec Ideal S2000x128 .f32) (hs : S2000x128.ShapeCasts S2000x128)
    (hc : Shape.Concatenates [S2000x128, S2000x128] S2000x256 (1 : Fin 2)) (hb : FTy.bits .bf16 < FTy.bits .f32)
    (p : Fin 2000) (k : Fin 256) :
    (truncf .bf16 (concatenate S2000x256 (1 : Fin 2) [⟨S2000x128, x⟩, ⟨S2000x128, shapeCast S2000x128 y hs⟩] hc) hb :
        FVec Ideal S2000x256 .bf16) (ix2 p k)
      = catRow (fun c => x (ix2 p c)) (fun c => y (ix2 p c)) k := by
  rw [shapeCast_self y hs]
  show concatenate S2000x256 (1 : Fin 2) [⟨S2000x128, x⟩, ⟨S2000x128, y⟩] hc (ix2 p k) = _
  unfold catRow
  by_cases hk : k.val < 128
  · rw [dif_pos hk]
    exact Cert.DenseRows.concat_cols_left x y hc p k hk
  · rw [dif_neg hk]
    exact Cert.DenseRows.concat_cols_right x y hc p k (by omega) (by have := k.isLt; omega)

/-- One dense layer of the body at row `p`, column `q`: the product into the zero accumulator plus the bias row. -/
theorem layer_apply {K : ℕ} (D : DotDims ⟨2, ![2000, K]⟩ ⟨2, ![K, 128]⟩ ⟨2, ![2000, 128]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![2000, K]⟩ .bf16) (W : FVec Ideal ⟨2, ![K, 128]⟩ .f32) (b : FVec Ideal ⟨2, ![1, 128]⟩ .f32)
    (hb : FTy.bits .bf16 < FTy.bits .f32) (h1 : (⟨2, ![1, 128]⟩ : Shape).ShapeCasts ⟨2, ![1, 128]⟩)
    (h2 : (⟨2, ![1, 128]⟩ : Shape).Broadcasts ⟨2, ![2000, 128]⟩) (p : Fin 2000) (q : Fin 128) :
    addf (matmul D none A (truncf .bf16 W hb) (constant (F := Ideal) ⟨2, ![2000, 128]⟩ .f32 0x00000000#32))
        (broadcastTo ⟨2, ![2000, 128]⟩ (shapeCast ⟨2, ![1, 128]⟩ b h1) h2) (ix2 p q)
      = dense (fun k c => W (ix2 k c)) (fun c => b (ix2 (0 : Fin 1) c)) (fun k => A (ix2 p k)) q := by
  show matmul D none A (truncf .bf16 W hb) (constant (F := Ideal) ⟨2, ![2000, 128]⟩ .f32 0x00000000#32) (ix2 p q)
      + broadcastTo ⟨2, ![2000, 128]⟩ (shapeCast ⟨2, ![1, 128]⟩ b h1) h2 (ix2 p q) = _
  rw [Cert.DenseRows.matmul_zero_plain_apply D hl hr hrank hsize hl0 hr1 A (truncf .bf16 W hb) p q,
    broadcastTo_1b_ab_apply _ h2 p q, shapeCast_self b h1]
  rfl

/-! ## The three layers -/

/-- The value the body sends into the normalisation, at row `p`, column `q`: the three layers of the row. -/
theorem pay2_apply (P0 P1 : Vec Ideal S2000x128 .f32) (P2 : Vec Ideal S256x128 .f32) (P3 : Vec Ideal S1x128 .f32)
    (P4 : Vec Ideal S128x128 .f32) (P5 : Vec Ideal S1x128 .f32) (P6 : Vec Ideal S128x128 .f32)
    (P7 : Vec Ideal S1x128 .f32) (p : Fin 2000) (q : Fin 128) :
    k0_pay2 (F := Ideal) P0 P1 P2 P3 P4 P5 P6 P7 (ix2 p q)
      = mlp floorW (fun k c => P2 (ix2 k c)) (fun c => P3 (ix2 (0 : Fin 1) c)) (fun k c => P4 (ix2 k c))
          (fun c => P5 (ix2 (0 : Fin 1) c)) (fun k c => P6 (ix2 k c)) (fun c => P7 (ix2 (0 : Fin 1) c))
          (catRow (fun c => P0 (ix2 p c)) (fun c => P1 (ix2 p c))) q := by
  unfold k0_pay2 mlp
  refine (layer_apply D2 rfl rfl rfl rfl D2_row D2_col _ P6 P7 _ _ _ p q).trans ?_
  refine congrArg (fun x => dense (fun k c => P6 (ix2 k c)) (fun c => P7 (ix2 (0 : Fin 1) c)) x q) (funext fun k2 => ?_)
  refine congrArg (fun t => max t floorW) ?_
  refine (layer_apply D2 rfl rfl rfl rfl D2_row D2_col _ P4 P5 _ _ _ p k2).trans ?_
  refine congrArg (fun x => dense (fun k c => P4 (ix2 k c)) (fun c => P5 (ix2 (0 : Fin 1) c)) x k2) (funext fun k1 => ?_)
  refine congrArg (fun t => max t floorW) ?_
  refine (layer_apply D1 rfl rfl rfl rfl D1_row D1_col _ P2 P3 _ _ _ p k1).trans ?_
  exact congrArg (fun x => dense (fun k c => P2 (ix2 k c)) (fun c => P3 (ix2 (0 : Fin 1) c)) x k1)
    (funext fun k0 => cat_apply P0 P1 _ _ _ p k0)

end Cert.NodeUpdate.Kernel

end
-- ==== Proof.KernelNorm.lean ====
/-
  The kernel's block, entry by entry: the normalisation along the row and the residual.

  After the three layers the body sums each row of the block (a lane sum from the zero word: the plain sum of the row's
  128 entries), divides by the row length, lays that mean back over the row, subtracts, squares, sums and divides again,
  adds the small constant, takes the reciprocal square root, and scales, shifts and adds the node's own row. Every one of
  these reads row `p` only, so entry `(p, q)` of the block is `rowOut` of row `p` of the two input blocks.
-/
import proofs.«173013_j22840636080715_1_alg».proof.Proof.KernelRow

noncomputable section

namespace Cert.NodeUpdate.Kernel

open Idealize.ShloMosaic Idealize.ShloMosaic.ValueIdx Idealize.ShloMosaic.TcCoe
open Cert.KernelIdeal Cert.KernelIdeal.Gen
open Cert.NodeUpdate
open scoped BigOperators

/-! ## Sums along a row of the block -/

/-- The lane sum of a block along its columns, as the body writes it. -/
abbrev rowSums (H : FVec Ideal S2000x128 .f32) : FVec Ideal S2000 .f32 :=
  multiReduction .add [1] S2000 H 0x00000000#32 reduces_S2000x128_S2000 (.inl rfl) rfl

/-- At row `p` it is the sum of the row's entries. -/
theorem rowSums_apply (H : FVec Ideal S2000x128 .f32) (p : Fin 2000) :
    rowSums H (ix1 p) = ∑ k : Fin 128, H (ix2 p k) :=
  Cert.DenseRows.laneSum_apply H reduces_S2000x128_S2000 (.inl rfl) rfl
    (fun r k => Cert.RowLift.lift_row reduces_S2000x128_S2000 r k) p

/-- The rows' means kept as a column and laid back over the columns, as the body writes it. -/
abbrev meanBlock (H : FVec Ideal S2000x128 .f32) : FVec Ideal S2000x128 .f32 :=
  broadcastTo S2000x128 (divf (shapeCast S2000x1 (rowSums H) shapeCasts_S2000_S2000x1)
    (broadcast S2000x1 (Scalar.ofBits .f32 0x43000000#32))) broadcasts_S2000x1_S2000x128

/-- At `(p, k)` it is the mean of row `p`, whatever the column. -/
theorem meanBlock_apply (H : FVec Ideal S2000x128 .f32) (p : Fin 2000) (k : Fin 128) :
    meanBlock H (ix2 p k) = Ideal.div (∑ j : Fin 128, H (ix2 p j)) lenW := by
  refine (Cert.ColumnLayout.broadcastTo_a1_ab_apply _ broadcasts_S2000x1_S2000x128 p k).trans ?_
  show Ideal.div (shapeCast S2000x1 (rowSums H) shapeCasts_S2000_S2000x1 (ix2 p (0 : Fin 1))) lenW = _
  rw [Cert.ColumnLayout.shapeCast_a_a1_apply _ shapeCasts_S2000_S2000x1 p 0, rowSums_apply]

/-! ## The normalised, scaled, shifted entry plus the residual -/

/-- What the body leaves at an entry, written over the value `H` that enters the normalisation and over the six indices
    at which its parts are read. -/
def tailAt (H : FVec Ideal S2000x128 .f32) (P8 P9 : Vec Ideal S1x128 .f32) (P0 : Vec Ideal S2000x128 .f32)
    (i0 : S2000x128.Idx) (i1 i2 : S2000.Idx) (i3 i4 : S1x128.Idx) (i5 : S2000x128.Idx) : Ideal .f32 :=
  FloatOps.addf (FloatOps.addf (FloatOps.mulf (FloatOps.mulf
    (FloatOps.subf (H i0) (FloatOps.divf (rowSums H i1) (Scalar.ofBits .f32 0x43000000#32)))
    (FloatOps.rsqrt (FloatOps.addf
      (FloatOps.divf (rowSums (mulf (subf H (meanBlock H)) (subf H (meanBlock H))) i2) (Scalar.ofBits .f32 0x43000000#32))
      (Scalar.ofBits .f32 0x3727C5AC#32))))
    (P8 i3)) (P9 i4)) (P0 i5)

/-- At the indices of entry `(p, q)`, and for a value whose row `p` is the row `hr`, it is the normalisation of `hr`
    at `q`, scaled and shifted by the two rows read at `q`, plus the residual entry. -/
theorem tailAt_apply (H : FVec Ideal S2000x128 .f32) (P8 P9 : Vec Ideal S1x128 .f32) (P0 : Vec Ideal S2000x128 .f32)
    (p : Fin 2000) (q : Fin 128) (hr : Fin 128 → EReal) (hh : ∀ k, H (ix2 p k) = hr k) :
    tailAt H P8 P9 P0 (ix2 p q) (ix1 p) (ix1 p) (ix2 (0 : Fin 1) q) (ix2 (0 : Fin 1) q) (ix2 p q)
      = norm lenW epsW (fun c => P8 (ix2 (0 : Fin 1) c)) (fun c => P9 (ix2 (0 : Fin 1) c)) hr q + P0 (ix2 p q) := by
  have hsum : rowSums H (ix1 p) = ∑ k : Fin 128, hr k :=
    (rowSums_apply H p).trans (Finset.sum_congr rfl fun k _ => hh k)
  have hmb : ∀ k : Fin 128, meanBlock H (ix2 p k) = mean lenW hr := fun k =>
    (meanBlock_apply H p k).trans (congrArg (fun s => Ideal.div s lenW) (Finset.sum_congr rfl fun j _ => hh j))
  have hsq : rowSums (mulf (subf H (meanBlock H)) (subf H (meanBlock H))) (ix1 p)
      = ∑ k : Fin 128, centred lenW hr k * centred lenW hr k := by
    refine (rowSums_apply _ p).trans (Finset.sum_congr rfl fun k _ => ?_)
    show (H (ix2 p k) - meanBlock H (ix2 p k)) * (H (ix2 p k) - meanBlock H (ix2 p k)) = _
    rw [hh k, hmb k]
    rfl
  unfold tailAt
  rw [hsum, hsq, hh q]
  rfl

/-! ## The block -/

/-- Entry `(p, q)` of the block the body leaves is the row function of row `p` of the node block and of the received
    block, with the weights and the bias, scale and shift rows as loaded. -/
theorem E10_apply (P0 P1 : Vec Ideal S2000x128 .f32) (P2 : Vec Ideal S256x128 .f32) (P3 : Vec Ideal S1x128 .f32)
    (P4 : Vec Ideal S128x128 .f32) (P5 : Vec Ideal S1x128 .f32) (P6 : Vec Ideal S128x128 .f32)
    (P7 P8 P9 : Vec Ideal S1x128 .f32) (p : Fin 2000) (q : Fin 128) :
    Cert.KernelIdeal.Value.E10 (F := Ideal) P0 P1 P2 P3 P4 P5 P6 P7 P8 P9 (ix2 p q)
      = rowOut floorW lenW epsW (fun k c => P2 (ix2 k c)) (fun c => P3 (ix2 (0 : Fin 1) c)) (fun k c => P4 (ix2 k c))
          (fun c => P5 (ix2 (0 : Fin 1) c)) (fun k c => P6 (ix2 k c)) (fun c => P7 (ix2 (0 : Fin 1) c))
          (fun c => P8 (ix2 (0 : Fin 1) c)) (fun c => P9 (ix2 (0 : Fin 1) c))
          (fun c => P0 (ix2 p c)) (fun c => P1 (ix2 p c)) q := by
  have e0 : Cert.KernelIdeal.Value.ix10_0 (ix2 p q) = ix2 p q :=
    funext fun a => by match a with | ⟨0, _⟩ => rfl | ⟨1, _⟩ => rfl
  have e1 : Cert.KernelIdeal.Value.ix10_1 (ix2 p q) = ix1 p :=
    funext fun a => by match a with | ⟨0, _⟩ => rfl
  have e2 : Cert.KernelIdeal.Value.ix10_2 (ix2 p q) = ix1 p :=
    funext fun a => by match a with | ⟨0, _⟩ => rfl
  have e3 : Cert.KernelIdeal.Value.ix10_3 (ix2 p q) = ix2 (0 : Fin 1) q :=
    funext fun a => by match a with | ⟨0, _⟩ => rfl | ⟨1, _⟩ => rfl
  have e4 : Cert.KernelIdeal.Value.ix10_4 (ix2 p q) = ix2 (0 : Fin 1) q :=
    funext fun a => by match a with | ⟨0, _⟩ => rfl | ⟨1, _⟩ => rfl
  have e5 : Cert.KernelIdeal.Value.ix10_5 (ix2 p q) = ix2 p q :=
    funext fun a => by match a with | ⟨0, _⟩ => rfl | ⟨1, _⟩ => rfl
  have hE : Cert.KernelIdeal.Value.E10 (F := Ideal) P0 P1 P2 P3 P4 P5 P6 P7 P8 P9 (ix2 p q)
      = tailAt (k0_pay2 (F := Ideal) P0 P1 P2 P3 P4 P5 P6 P7) P8 P9 P0
          (Cert.KernelIdeal.Value.ix10_0 (ix2 p q)) (Cert.KernelIdeal.Value.ix10_1 (ix2 p q))
          (Cert.KernelIdeal.Value.ix10_2 (ix2 p q)) (Cert.KernelIdeal.Value.ix10_3 (ix2 p q))
          (Cert.KernelIdeal.Value.ix10_4 (ix2 p q)) (Cert.KernelIdeal.Value.ix10_5 (ix2 p q)) := rfl
  rw [hE, e0, e1, e2, e3, e4, e5]
  exact tailAt_apply _ P8 P9 P0 p q _ (fun k => pay2_apply P0 P1 P2 P3 P4 P5 P6 P7 p k)

end Cert.NodeUpdate.Kernel

end
-- ==== Proof.Blocks.lean ====
/-
  From the blocks to the array.

  The grid has 25 points; point `t` works on rows `2000·t … 2000·t + 1999` of the node features and of the received
  features (block `(t, 0)` of each) and on the whole of every weight matrix and of every bias, scale and shift row
  (block `(0, 0)`), and writes back block `(t, 0)` of the result. The received features are the array the program computes
  before the region by scattering the edge features; the bias, scale and shift rows are the vectors seen as one row each.
  So what point `t` writes back is block `t` of the array `G`, and the 25 blocks cover all 50000 rows: the result array
  ends as `G`.
-/
import proofs.«173013_j22840636080715_1_alg».proof.Proof.Gen.KernelIdeal.Value
import proofs.«173013_j22840636080715_1_alg».proof.Proof.KernelNorm
import Idealize.ShloMosaic.Lib.StableHlo.Run
import Idealize.ShloMosaic.Lib.ValueLayout

noncomputable section

namespace Cert.NodeUpdate.Kernel

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)
open Cert.NodeUpdate
open scoped BigOperators

variable (m : (ℓ : Loc nD τ sig) → Buf (Elt Ideal) ℓ) (ρ : Dev nD → PrngReg)

/-! ## The arrays the region finds -/

/-- The received features as the program computes them before the region: row 1 of the edge list, as a column of row
    numbers, scatters the edge features into an array of zeros, adding. -/
def aggOf (a1 : (⟨S2x625000, .i32⟩ : BufTy).Contents (Elt Ideal)) (a2 : FVec Ideal S625000x128 .f32) :
    FVec Ideal S50000x128 .f32 :=
  Host.scatterAdd (F := Ideal) scatter_S50000x128_S625000x1_S625000x128_1_0_0_1
    (broadcastInDim S50000x128 ![] bcast_S_S50000x128 (constant (F := Ideal) S_ .f32 0x00000000#32))
    (broadcastInDim S625000x1 ![0] bcast_S625000_S625000x1_0
      (shapeCast S625000 (extractStridedSlice S1x625000 ![1, 0] a1 slices_S2x625000_S1x625000_1_0)
        shapeCasts_S1x625000_S625000))
    a2

theorem V_agg (d : Dev nD) : (V m d main_v4 : S50000x128.Idx → EReal)
    = aggOf (m ((d : Thread nD τ).loc main_arg1)) (m ((d : Thread nD τ).loc main_arg2)) := by
  dsimp only [Gen.V, Gen.hostOps0]; after_results; rfl

theorem V_b1 (d : Dev nD) : (V m d main_v5 : S1x128.Idx → EReal)
    = shapeCast S1x128 (m ((d : Thread nD τ).loc main_arg4)) shapeCasts_S128_S1x128 := by
  dsimp only [Gen.V, Gen.hostOps0]; after_results; rfl

theorem V_b2 (d : Dev nD) : (V m d main_v6 : S1x128.Idx → EReal)
    = shapeCast S1x128 (m ((d : Thread nD τ).loc main_arg6)) shapeCasts_S128_S1x128 := by
  dsimp only [Gen.V, Gen.hostOps0]; after_results; rfl

theorem V_b3 (d : Dev nD) : (V m d main_v7 : S1x128.Idx → EReal)
    = shapeCast S1x128 (m ((d : Thread nD τ).loc main_arg8)) shapeCasts_S128_S1x128 := by
  dsimp only [Gen.V, Gen.hostOps0]; after_results; rfl

theorem V_gamma (d : Dev nD) : (V m d main_v8 : S1x128.Idx → EReal)
    = shapeCast S1x128 (m ((d : Thread nD τ).loc main_arg9)) shapeCasts_S128_S1x128 := by
  dsimp only [Gen.V, Gen.hostOps0]; after_results; rfl

theorem V_beta (d : Dev nD) : (V m d main_v9 : S1x128.Idx → EReal)
    = shapeCast S1x128 (m ((d : Thread nD τ).loc main_arg10)) shapeCasts_S128_S1x128 := by
  dsimp only [Gen.V, Gen.hostOps0]; after_results; rfl

/-! ## Which block each point works on -/

theorem hz : (![0, 0] : Fin 2 → Nat) = fun _ => 0 := funext fun a => by fin_cases a <;> rfl

/-- The node features, the received features and the result move with the point: block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The three weight matrices stay: block `(0, 0)` at every point. -/
theorem idx_mats : ∀ t : Fin cfg0.N,
    win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0 :=
  (by decide +kernel : ∀ t : Fin grid0.N, _)

/-- The five rows (three biases, scale, shift) stay: block `(0, 0)` at every point. -/
theorem idx_vecs : ∀ t : Fin cfg0.N,
    win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## An entry of a block, in the array -/

theorem emb_rows0 (t : Fin cfg0.N) (p : Fin 2000) (k : Fin 128) (hR : t.val * 2000 + p.val < 50000) :
    ((cfg0.win 0).blk t).view.emb (ix2 p k) = ix2 (⟨t.val * 2000 + p.val, hR⟩ : Fin 50000) k := by
  have e := idx_rows t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb_rows1 (t : Fin cfg0.N) (p : Fin 2000) (k : Fin 128) (hR : t.val * 2000 + p.val < 50000) :
    ((cfg0.win 1).blk t).view.emb (ix2 p k) = ix2 (⟨t.val * 2000 + p.val, hR⟩ : Fin 50000) k := by
  have e := idx_rows t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb_rows10 (t : Fin cfg0.N) (p : Fin 2000) (k : Fin 128) (hR : t.val * 2000 + p.val < 50000) :
    ((cfg0.win 10).blk t).view.emb (ix2 p k) = ix2 (⟨t.val * 2000 + p.val, hR⟩ : Fin 50000) k := by
  have e := idx_rows t
  funext a; apply Fin.ext
  match a with
  | ⟨0, _⟩ => show win0_10.index t (0 : Fin 2) * 2000 + 1 * p.val = t.val * 2000 + p.val; omega
  | ⟨1, _⟩ => show win0_10.index t (1 : Fin 2) * 128 + 1 * k.val = k.val; omega

/-! ## The blocks the body loads -/

theorem blk_node (d : Dev nD) (t : Fin cfg0.N) (p : Fin 2000) (hR : t.val * 2000 + p.val < 50000) (k : Fin 128) :
    iblk m d 0 t (ix2 p k) = m ((d : Thread nD τ).loc main_arg0) (ix2 (⟨t.val * 2000 + p.val, hR⟩ : Fin 50000) k) := by
  show V m d main_arg0 (((cfg0.win 0).blk t).view.emb (ix2 p k)) = _
  rw [emb_rows0 t p k hR, V_main_arg0]

theorem blk_agg (d : Dev nD) (t : Fin cfg0.N) (p : Fin 2000) (hR : t.val * 2000 + p.val < 50000) (k : Fin 128) :
    iblk m d 1 t (ix2 p k) = (aggOf (m ((d : Thread nD τ).loc main_arg1)) (m ((d : Thread nD τ).loc main_arg2))) (ix2 (⟨t.val * 2000 + p.val, hR⟩ : Fin 50000) k) := by
  show (V m d main_v4 : S50000x128.Idx → EReal) (((cfg0.win 1).blk t).view.emb (ix2 p k)) = _
  rw [emb_rows1 t p k hR, V_agg]

theorem blk_W1 (d : Dev nD) (t : Fin cfg0.N) (k : Fin 256) (q : Fin 128) :
    iblk m d 2 t (ix2 k q) = m ((d : Thread nD τ).loc main_arg3) (ix2 k q) := by
  have h : ((cfg0.win 2).blk t).view.emb (ix2 k q) = ix2 k q := by
    have e := idx_mats t
    funext a; apply Fin.ext
    match a with
    | ⟨0, _⟩ => show win0_2.index t (0 : Fin 2) * 256 + 1 * k.val = k.val; omega
    | ⟨1, _⟩ => show win0_2.index t (1 : Fin 2) * 128 + 1 * q.val = q.val; omega
  show V m d main_arg3 (((cfg0.win 2).blk t).view.emb (ix2 k q)) = _
  rw [h, V_main_arg3]

theorem blk_W2 (d : Dev nD) (t : Fin cfg0.N) (k : Fin 128) (q : Fin 128) :
    iblk m d 4 t (ix2 k q) = m ((d : Thread nD τ).loc main_arg5) (ix2 k q) := by
  have h : ((cfg0.win 4).blk t).view.emb (ix2 k q) = ix2 k q := by
    have e := idx_mats t
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  show V m d main_arg5 (((cfg0.win 4).blk t).view.emb (ix2 k q)) = _
  rw [h, V_main_arg5]

theorem blk_W3 (d : Dev nD) (t : Fin cfg0.N) (k : Fin 128) (q : Fin 128) :
    iblk m d 6 t (ix2 k q) = m ((d : Thread nD τ).loc main_arg7) (ix2 k q) := by
  have h : ((cfg0.win 6).blk t).view.emb (ix2 k q) = ix2 k q := by
    have e := idx_mats t
    funext a; apply Fin.ext
    match a with
    | ⟨0, _⟩ => show win0_6.index t (0 : Fin 2) * 128 + 1 * k.val = k.val; omega
    | ⟨1, _⟩ => show win0_6.index t (1 : Fin 2) * 128 + 1 * q.val = q.val; omega
  show V m d main_arg7 (((cfg0.win 6).blk t).view.emb (ix2 k q)) = _
  rw [h, V_main_arg7]

theorem blk_b1 (d : Dev nD) (t : Fin cfg0.N) (q : Fin 128) :
    iblk m d 3 t (ix2 (0 : Fin 1) q) = m ((d : Thread nD τ).loc main_arg4) (ix1 q) := by
  have h : ((cfg0.win 3).blk t).view.emb (ix2 (0 : Fin 1) q) = ix2 (0 : Fin 1) q := by
    have e := idx_vecs t
    funext a; apply Fin.ext
    match a with
    | ⟨0, _⟩ => show win0_3.index t (0 : Fin 2) * 1 + 1 * (0 : Fin 1).val = (0 : Fin 1).val; omega
    | ⟨1, _⟩ => show win0_3.index t (1 : Fin 2) * 128 + 1 * q.val = q.val; omega
  show (V m d main_v5 : S1x128.Idx → EReal) (((cfg0.win 3).blk t).view.emb (ix2 (0 : Fin 1) q)) = _
  rw [h, V_b1]
  exact shapeCast_a_1a_apply _ shapeCasts_S128_S1x128 0 q

theorem blk_b2 (d : Dev nD) (t : Fin cfg0.N) (q : Fin 128) :
    iblk m d 5 t (ix2 (0 : Fin 1) q) = m ((d : Thread nD τ).loc main_arg6) (ix1 q) := by
  have h : ((cfg0.win 5).blk t).view.emb (ix2 (0 : Fin 1) q) = ix2 (0 : Fin 1) q := by
    have e := idx_vecs t
    funext a; apply Fin.ext
    match a with
    | ⟨0, _⟩ => show win0_5.index t (0 : Fin 2) * 1 + 1 * (0 : Fin 1).val = (0 : Fin 1).val; omega
    | ⟨1, _⟩ => show win0_5.index t (1 : Fin 2) * 128 + 1 * q.val = q.val; omega
  show (V m d main_v6 : S1x128.Idx → EReal) (((cfg0.win 5).blk t).view.emb (ix2 (0 : Fin 1) q)) = _
  rw [h, V_b2]
  exact shapeCast_a_1a_apply _ shapeCasts_S128_S1x128 0 q

theorem blk_b3 (d : Dev nD) (t : Fin cfg0.N) (q : Fin 128) :
    iblk m d 7 t (ix2 (0 : Fin 1) q) = m ((d : Thread nD τ).loc main_arg8) (ix1 q) := by
  have h : ((cfg0.win 7).blk t).view.emb (ix2 (0 : Fin 1) q) = ix2 (0 : Fin 1) q := by
    have e := idx_vecs t
    funext a; apply Fin.ext
    match a with
    | ⟨0, _⟩ => show win0_7.index t (0 : Fin 2) * 1 + 1 * (0 : Fin 1).val = (0 : Fin 1).val; omega
    | ⟨1, _⟩ => show win0_7.index t (1 : Fin 2) * 128 + 1 * q.val = q.val; omega
  show (V m d main_v7 : S1x128.Idx → EReal) (((cfg0.win 7).blk t).view.emb (ix2 (0 : Fin 1) q)) = _
  rw [h, V_b3]
  exact shapeCast_a_1a_apply _ shapeCasts_S128_S1x128 0 q

theorem blk_gamma (d : Dev nD) (t : Fin cfg0.N) (q : Fin 128) :
    iblk m d 8 t (ix2 (0 : Fin 1) q) = m ((d : Thread nD τ).loc main_arg9) (ix1 q) := by
  have h : ((cfg0.win 8).blk t).view.emb (ix2 (0 : Fin 1) q) = ix2 (0 : Fin 1) q := by
    have e := idx_vecs t
    funext a; apply Fin.ext
    match a with
    | ⟨0, _⟩ => show win0_8.index t (0 : Fin 2) * 1 + 1 * (0 : Fin 1).val = (0 : Fin 1).val; omega
    | ⟨1, _⟩ => show win0_8.index t (1 : Fin 2) * 128 + 1 * q.val = q.val; omega
  show (V m d main_v8 : S1x128.Idx → EReal) (((cfg0.win 8).blk t).view.emb (ix2 (0 : Fin 1) q)) = _
  rw [h, V_gamma]
  exact shapeCast_a_1a_apply _ shapeCasts_S128_S1x128 0 q

theorem blk_beta (d : Dev nD) (t : Fin cfg0.N) (q : Fin 128) :
    iblk m d 9 t (ix2 (0 : Fin 1) q) = m ((d : Thread nD τ).loc main_arg10) (ix1 q) := by
  have h : ((cfg0.win 9).blk t).view.emb (ix2 (0 : Fin 1) q) = ix2 (0 : Fin 1) q := by
    have e := idx_vecs t
    funext a; apply Fin.ext
    match a with
    | ⟨0, _⟩ => show win0_9.index t (0 : Fin 2) * 1 + 1 * (0 : Fin 1).val = (0 : Fin 1).val; omega
    | ⟨1, _⟩ => show win0_9.index t (1 : Fin 2) * 128 + 1 * q.val = q.val; omega
  show (V m d main_v9 : S1x128.Idx → EReal) (((cfg0.win 9).blk t).view.emb (ix2 (0 : Fin 1) q)) = _
  rw [h, V_beta]
  exact shapeCast_a_1a_apply _ shapeCasts_S128_S1x128 0 q

/-! ## What the body leaves, over arbitrary blocks -/

/-- Entry `(p, q)` of the block the body leaves, from the ten blocks it loads. -/
theorem out_apply (x0 x1 : Vec Ideal S2000x128 .f32) (x2 : Vec Ideal S256x128 .f32) (x3 : Vec Ideal S1x128 .f32)
    (x4 : Vec Ideal S128x128 .f32) (x5 : Vec Ideal S1x128 .f32) (x6 : Vec Ideal S128x128 .f32)
    (x7 x8 x9 : Vec Ideal S1x128 .f32) (p : Fin 2000) (q : Fin 128) :
    out0_10 (F := Ideal) x0 x1 x2 x3 x4 x5 x6 x7 x8 x9 (ix2 p q)
      = rowOut floorW lenW epsW (fun k c => x2 (ix2 k c)) (fun c => x3 (ix2 (0 : Fin 1) c)) (fun k c => x4 (ix2 k c))
          (fun c => x5 (ix2 (0 : Fin 1) c)) (fun k c => x6 (ix2 k c)) (fun c => x7 (ix2 (0 : Fin 1) c))
          (fun c => x8 (ix2 (0 : Fin 1) c)) (fun c => x9 (ix2 (0 : Fin 1) c))
          (fun c => x0 (ix2 p c)) (fun c => x1 (ix2 p c)) q := by
  unfold out0_10
  simp only [View.ld_unit_zero (S := S2000x128) hz, View.ld_unit_zero (S := S256x128) hz,
    View.ld_unit_zero (S := S1x128) hz, View.ld_unit_zero (S := S128x128) hz]
  exact (canon10_eq x0 x1 x2 x3 x4 x5 x6 x7 x8 x9 (ix2 p q)).trans (E10_apply x0 x1 x2 x3 x4 x5 x6 x7 x8 x9 p q)

/-! ## What a point writes back, the cover, and the array -/

/-- The array the result ends as: `G` of the argument arrays, the received features computed as the program does. -/
abbrev Gk (d : Dev nD) : Mat 50000 128 :=
  G (m ((d : Thread nD τ).loc main_arg0)) (aggOf (m ((d : Thread nD τ).loc main_arg1)) (m ((d : Thread nD τ).loc main_arg2)))
    (m ((d : Thread nD τ).loc main_arg3)) (m ((d : Thread nD τ).loc main_arg4)) (m ((d : Thread nD τ).loc main_arg5)) (m ((d : Thread nD τ).loc main_arg6))
    (m ((d : Thread nD τ).loc main_arg7)) (m ((d : Thread nD τ).loc main_arg8)) (m ((d : Thread nD τ).loc main_arg9)) (m ((d : Thread nD τ).loc main_arg10))

/-- What point `t` writes back is block `t` of that array. -/
theorem flushed_eq (d : Dev nD) (t : Fin cfg0.N) :
    (dats m 0 d).flushed 10 t = ((cfg0.win 10).blk t).view.read (Elt Ideal) (Gk m d) := by
  rw [flushed10]
  funext j
  obtain ⟨p, q, rfl⟩ : ∃ (p : Fin 2000) (q : Fin 128), j = ix2 p q := ⟨j 0, j 1, eq_ix2 j⟩
  have ht : t.val < 25 := lt_of_lt_of_eq t.isLt N_0
  have hR : t.val * 2000 + p.val < 50000 := by have := p.isLt; omega
  show out0_10 (iblk m d 0 t) (iblk m d 1 t) (iblk m d 2 t) (iblk m d 3 t) (iblk m d 4 t) (iblk m d 5 t)
        (iblk m d 6 t) (iblk m d 7 t) (iblk m d 8 t) (iblk m d 9 t) (ix2 p q)
      = Gk m d (((cfg0.win 10).blk t).view.emb (ix2 p q))
  rw [emb_rows10 t p q hR, out_apply]
  show _ = entry _ _ _ _ _ _ _ _ _ _ (⟨t.val * 2000 + p.val, hR⟩ : Fin 50000) q
  unfold entry
  simp only [blk_node m d t p hR, blk_agg m d t p hR, blk_W1 m d t, blk_b1 m d t, blk_W2 m d t, blk_b2 m d t,
    blk_W3 m d t, blk_b3 m d t, blk_gamma m d t, blk_beta m d t]

/-- An index of the result array is in point `t`'s block iff each coordinate is in the block's range. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v10).slice (win0_10.rect t)).set ↔ _
  rw [View.set_slice_whole, Rect.mem_set_unit]
  exact Iff.rfl

/-- Row `r` is in the block of point `r / 2000`: the 25 blocks cover the array. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : grid0.N = 25 := N_0
  have hlt : (i 0).val / 2000 < grid0.N := by omega
  refine ⟨⟨(i 0).val / 2000, hlt⟩, flush0_10 _, ?_⟩
  rw [mem_blk]
  have e := idx_rows ⟨(i 0).val / 2000, hlt⟩
  have hv : (⟨(i 0).val / 2000, hlt⟩ : Fin cfg0.N).val = (i 0).val / 2000 := rfl
  intro a
  match a with
  | ⟨0, _⟩ =>
    show win0_10.index ⟨(i 0).val / 2000, hlt⟩ (0 : Fin 2) * 2000 ≤ (i 0).val
      ∧ (i 0).val < win0_10.index ⟨(i 0).val / 2000, hlt⟩ (0 : Fin 2) * 2000 + 2000
    omega
  | ⟨1, _⟩ =>
    show win0_10.index ⟨(i 0).val / 2000, hlt⟩ (1 : Fin 2) * 128 ≤ (i 1).val
      ∧ (i 1).val < win0_10.index ⟨(i 0).val / 2000, hlt⟩ (1 : Fin 2) * 128 + 128
    omega

/-- The result array after the run. -/
theorem final (d : Dev nD) : (dats m 0 d).arrAt 10 cfg0.N = Gk m d :=
  (dats m 0 d).arrAt_eq_of_cover 10 (Gk m d) (fun t _ => flushed_eq m d t) cover

/-- Every weakly fair execution of the kernel's program ends with the result array at `G` of the arguments, the
    arguments unchanged. -/
theorem run : θ_run defs (onTc (τ := τ) (main (F := Ideal))) ⟨m, fun _ => 0, ρ⟩ fun r => ∀ d : Dev nD,
      r.2.mem ((d : Thread nD τ).loc main_v10) = Gk m d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6)
      ∧ r.2.mem ((d : Thread nD τ).loc main_arg7) = m ((d : Thread nD τ).loc main_arg7)
      ∧ r.2.mem ((d : Thread nD τ).loc main_arg8) = m ((d : Thread nD τ).loc main_arg8)
      ∧ r.2.mem ((d : Thread nD τ).loc main_arg9) = m ((d : Thread nD τ).loc main_arg9)
      ∧ r.2.mem ((d : Thread nD τ).loc main_arg10) = m ((d : Thread nD τ).loc main_arg10) :=
  (θ_run defs _ _).mono (fun r h d => ⟨(h d).1.trans (final m d), (h d).2⟩) (run_blocks m ρ)

end Cert.NodeUpdate.Kernel

end
-- ==== Proof.RefRow.lean ====
/-
  The reference's result, entry by entry.

  The reference applies the same steps to all 50000 rows at once: the node features and the received features side by
  side, three products with the weight matrices (each the plain sum over the contracted columns) with the bias vector laid
  along every row and the rectifier against a broadcast zero after the first two, then the normalisation along each row —
  the two row sums start from a zero constant, which adds nothing — and the node features added back. Entry `(r, q)` is
  `rowOut` of row `r`. The received features are the same array however they were computed: they enter as a variable.
-/
import proofs.«173013_j22840636080715_1_alg».proof.Proof.Gen.ReferenceIdeal.Read
import proofs.«173013_j22840636080715_1_alg».proof.Proof.RowSpec
import proofs.«173013_j22840636080715_1_alg».proof.Proof.LibDenseRows
import proofs.«173013_j22840636080715_1_alg».proof.Proof.LibRowLift

noncomputable section

namespace Cert.NodeUpdate.Reference

open Idealize.ShloMosaic Idealize.ShloMosaic.ValueIdx Idealize.ShloMosaic.TcCoe
open Cert.ReferenceIdeal Cert.ReferenceIdeal.Gen Cert.ReferenceIdeal.Read
open Cert.NodeUpdate
open scoped BigOperators

/-- The first layer's contraction, 256 columns against 256 rows. -/
abbrev D1 := dot_S50000x256_S256x128_S50000x128_1_0_0_1_n_n
/-- The second and third layers' contraction, 128 columns against 128 rows. -/
abbrev D2 := dot_S50000x128_S128x128_S50000x128_1_0_0_1_n_n

/-! ## The pieces, over arbitrary arrays -/

/-- Two arrays side by side, read at row `r`, are the two rows side by side. -/
theorem cat_apply (x y : FVec Ideal S50000x128 .f32)
    (hc : Shape.Concatenates [S50000x128, S50000x128] S50000x256 (1 : Fin 2)) (r : Fin 50000) (k : Fin 256) :
    concatenate S50000x256 (1 : Fin 2) [⟨S50000x128, x⟩, ⟨S50000x128, y⟩] hc (ix2 r k)
      = catRow (fun c => x (ix2 r c)) (fun c => y (ix2 r c)) k := by
  unfold catRow
  by_cases hk : k.val < 128
  · rw [dif_pos hk]
    exact Cert.DenseRows.concat_cols_left x y hc r k hk
  · rw [dif_neg hk]
    exact Cert.DenseRows.concat_cols_right x y hc r k (by omega) (by have := k.isLt; omega)

/-- One dense layer of the reference at row `r`, column `q`: the contraction plus the bias vector along the row. -/
theorem layer_apply {K : ℕ} (D : DotDims ⟨2, ![50000, K]⟩ ⟨2, ![K, 128]⟩ ⟨2, ![50000, 128]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![50000, K]⟩ .f32) (W : FVec Ideal ⟨2, ![K, 128]⟩ .f32) (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![50000, 128]⟩ ![0, 1]) (r : Fin 50000) (q : Fin 128) :
    addf (Host.dotGeneral (F := Ideal) D none A W)
        (broadcastInDim ⟨2, ![50000, 128]⟩ ![0, 1] h2 (broadcastInDim ⟨2, ![1, 128]⟩ ![1] h1 b)) (ix2 r q)
      = dense (fun k c => W (ix2 k c)) (fun c => b (ix1 c)) (fun k => A (ix2 r k)) q := by
  show Host.dotGeneral (F := Ideal) D none A W (ix2 r q)
      + broadcastInDim ⟨2, ![50000, 128]⟩ ![0, 1] h2 (broadcastInDim ⟨2, ![1, 128]⟩ ![1] h1 b) (ix2 r q) = _
  rw [Cert.DenseRows.dotGeneral_plain_apply D hl hr hrank hsize hl0 hr1 A W r q,
    Cert.DenseRows.rowBias_inDim_apply b h1 h2 r q]
  rfl

/-- The first rectifier's broadcast zero is the floor everywhere. -/
theorem floor0_apply (i : S50000x128.Idx) : val_main_call0_v0 (F := Ideal) i = floorW :=
  (val_main_call0_v0_apply i).trans rfl

/-- The second rectifier's broadcast zero is the floor everywhere. -/
theorem floor1_apply (i : S50000x128.Idx) : val_main_call1_v0 (F := Ideal) i = floorW :=
  (val_main_call1_v0_apply i).trans rfl

/-! ## The three layers -/

/-- The value that enters the normalisation, at row `r`, column `q`: the three layers of the row. -/
theorem v19_apply (x0 : FVec Ideal S50000x128 .f32) (x1 : (⟨S2x625000, .i32⟩ : BufTy).Contents (Elt Ideal))
    (x2 : FVec Ideal S625000x128 .f32) (x3 : FVec Ideal S256x128 .f32) (x4 : FVec Ideal S128 .f32)
    (x5 : FVec Ideal S128x128 .f32) (x6 : FVec Ideal S128 .f32) (x7 : FVec Ideal S128x128 .f32)
    (x8 : FVec Ideal S128 .f32) (r : Fin 50000) (q : Fin 128) :
    val_main_v19 (F := Ideal) x0 x1 x2 x3 x4 x5 x6 x7 x8 (ix2 r q)
      = mlp floorW (fun k c => x3 (ix2 k c)) (fun c => x4 (ix1 c)) (fun k c => x5 (ix2 k c)) (fun c => x6 (ix1 c))
          (fun k c => x7 (ix2 k c)) (fun c => x8 (ix1 c))
          (catRow (fun c => x0 (ix2 r c)) (fun c => val_main_v4 (F := Ideal) x1 x2 (ix2 r c))) q := by
  unfold val_main_v19 val_main_v18 val_main_v17 val_main_v16 mlp
  refine (layer_apply D2 rfl rfl rfl rfl (fun j k => lhs_main_v16_0 j k) (fun j k => rhs_main_v16_1 j k)
    _ x7 x8 _ _ r q).trans ?_
  refine congrArg (fun x => dense (fun k c => x7 (ix2 k c)) (fun c => x8 (ix1 c)) x q) (funext fun k2 => ?_)
  show max (val_main_v14 (F := Ideal) x0 x1 x2 x3 x4 x5 x6 (ix2 r k2)) (val_main_call1_v0 (F := Ideal) (ix2 r k2)) = _
  rw [floor1_apply]
  refine congrArg (fun t => max t floorW) ?_
  unfold val_main_v14 val_main_v13 val_main_v12 val_main_v11
  refine (layer_apply D2 rfl rfl rfl rfl (fun j k => lhs_main_v11_0 j k) (fun j k => rhs_main_v11_1 j k)
    _ x5 x6 _ _ r k2).trans ?_
  refine congrArg (fun x => dense (fun k c => x5 (ix2 k c)) (fun c => x6 (ix1 c)) x k2) (funext fun k1 => ?_)
  show max (val_main_v9 (F := Ideal) x0 x1 x2 x3 x4 (ix2 r k1)) (val_main_call0_v0 (F := Ideal) (ix2 r k1)) = _
  rw [floor0_apply]
  refine congrArg (fun t => max t floorW) ?_
  unfold val_main_v9 val_main_v8 val_main_v7 val_main_v6
  refine (layer_apply D1 rfl rfl rfl rfl (fun j k => lhs_main_v6_0 j k) (fun j k => rhs_main_v6_1 j k)
    _ x3 x4 _ _ r k1).trans ?_
  refine congrArg (fun x => dense (fun k c => x3 (ix2 k c)) (fun c => x4 (ix1 c)) x k1) (funext fun k0 => ?_)
  unfold val_main_v5
  exact cat_apply x0 (val_main_v4 (F := Ideal) x1 x2) _ r k0

/-! ## Sums along a row -/

/-- The reference's sum of an array along its columns from a zero constant. -/
abbrev rowSums (H : FVec Ideal S50000x128 .f32) : FVec Ideal S50000 .f32 :=
  Host.reduceAdd (F := Ideal) H (constant (F := Ideal) S_ .f32 0x00000000#32) reducesTo_S50000x128_S50000_d1 h_S_

/-- At row `r` it is the sum of the row's entries: the zero it starts from adds nothing. -/
theorem rowSums_apply (H : FVec Ideal S50000x128 .f32) (r : Fin 50000) :
    rowSums H (ix1 r) = ∑ k : Fin 128, H (ix2 r k) := by
  refine (Cert.DenseRows.hostRowSum_apply H _ reducesTo_S50000x128_S50000_d1 h_S_ (by decide)
    (fun r k => Cert.RowLift.lift_row _ r k) r).trans ?_
  show Ideal.ofBits .f32 0x00000000#32 + _ = _
  rw [Ideal.ofBits_zero_f32, zero_add]

/-- The rows' means kept as a column. -/
abbrev meanCol (H : FVec Ideal S50000x128 .f32) : FVec Ideal S50000x1 .f32 :=
  Host.divf (F := Ideal) (broadcastInDim S50000x1 ![0] bcast_S50000_S50000x1_0 (rowSums H))
    (broadcastInDim S50000x1 ![] bcast_S_S50000x1 (constant (F := Ideal) S_ .f32 0x43000000#32))

/-- At `(r, u)` it is the mean of row `r`. -/
theorem meanCol_apply (H : FVec Ideal S50000x128 .f32) (r : Fin 50000) (u : Fin 1) :
    meanCol H (ix2 r u) = Ideal.div (∑ j : Fin 128, H (ix2 r j)) lenW := by
  show Ideal.div (broadcastInDim S50000x1 ![0] bcast_S50000_S50000x1_0 (rowSums H) (ix2 r u))
    (broadcastInDim S50000x1 ![] bcast_S_S50000x1 (constant (F := Ideal) S_ .f32 0x43000000#32) (ix2 r u)) = _
  rw [Cert.DenseRows.broadcastInDim_a_a1_apply _ bcast_S50000_S50000x1_0 r u, rowSums_apply,
    broadcastInDim_scalar_apply bcast_S_S50000x1 _ (ix2 r u)]
  rfl

/-- The means laid back over the columns. -/
abbrev meanBlock (H : FVec Ideal S50000x128 .f32) : FVec Ideal S50000x128 .f32 :=
  broadcastInDim S50000x128 ![0, 1] bcast_S50000x1_S50000x128_0_1 (meanCol H)

theorem meanBlock_apply (H : FVec Ideal S50000x128 .f32) (r : Fin 50000) (k : Fin 128) :
    meanBlock H (ix2 r k) = Ideal.div (∑ j : Fin 128, H (ix2 r j)) lenW :=
  (Cert.DenseRows.broadcastInDim_a1_ab_apply _ bcast_S50000x1_S50000x128_0_1 r k).trans (meanCol_apply H r 0)

end Cert.NodeUpdate.Reference

end
-- ==== Proof.RefNorm.lean ====
/-
  The reference's result, entry by entry: the normalisation along the row and the residual, and the whole array.

  With the value that enters the normalisation read row by row (`v19_apply`), the rest of the reference is the mean of each
  row laid back over the row, the centred row, its squares summed and divided again, the small constant added, the reciprocal
  square root laid over the row, the scale and shift vectors laid along every row, and the node features added back. So the
  reference's result is the array `G` of `RowSpec`.
-/
import proofs.«173013_j22840636080715_1_alg».proof.Proof.RefRow

noncomputable section

namespace Cert.NodeUpdate.Reference

open Idealize.ShloMosaic Idealize.ShloMosaic.ValueIdx Idealize.ShloMosaic.TcCoe
open Cert.ReferenceIdeal Cert.ReferenceIdeal.Gen Cert.ReferenceIdeal.Read
open Cert.NodeUpdate
open scoped BigOperators

/-- The squares of the centred array. -/
abbrev sqDev (H : FVec Ideal S50000x128 .f32) : FVec Ideal S50000x128 .f32 :=
  mulf (subf H (meanBlock H)) (subf H (meanBlock H))

/-- The row length as a column. -/
abbrev lenCol : FVec Ideal S50000x1 .f32 :=
  broadcastInDim S50000x1 ![] bcast_S_S50000x1 (constant (F := Ideal) S_ .f32 0x43000000#32)

/-- The small constant as a column. -/
abbrev epsCol : FVec Ideal S50000x1 .f32 :=
  broadcastInDim S50000x1 ![] bcast_S_S50000x1 (constant (F := Ideal) S_ .f32 0x3727C5AC#32)

/-- The reciprocal square root of each row's variance plus the small constant, as a column. -/
abbrev rsCol (H : FVec Ideal S50000x128 .f32) : FVec Ideal S50000x1 .f32 :=
  Host.rsqrt (F := Ideal) (addf (Host.divf (F := Ideal)
    (broadcastInDim S50000x1 ![0] bcast_S50000_S50000x1_0 (rowSums (sqDev H))) lenCol) epsCol)

/-- For an array whose row `r` is the row `hr`, the mean block at row `r` is the mean of `hr`. -/
theorem meanBlock_row (H : FVec Ideal S50000x128 .f32) (r : Fin 50000) (hr : Fin 128 → EReal)
    (hh : ∀ k, H (ix2 r k) = hr k) (k : Fin 128) : meanBlock H (ix2 r k) = mean lenW hr :=
  (meanBlock_apply H r k).trans (congrArg (fun s => Ideal.div s lenW) (Finset.sum_congr rfl fun j _ => hh j))

/-- … and the column of reciprocal square roots at row `r` is that of the variance of `hr` plus the small constant. -/
theorem rsCol_apply (H : FVec Ideal S50000x128 .f32) (r : Fin 50000) (u : Fin 1) (hr : Fin 128 → EReal)
    (hh : ∀ k, H (ix2 r k) = hr k) : rsCol H (ix2 r u) = Ideal.rsqrt (variance lenW hr + epsW) := by
  have hsq : rowSums (sqDev H) (ix1 r) = ∑ k : Fin 128, centred lenW hr k * centred lenW hr k := by
    refine (rowSums_apply _ r).trans (Finset.sum_congr rfl fun k _ => ?_)
    show (H (ix2 r k) - meanBlock H (ix2 r k)) * (H (ix2 r k) - meanBlock H (ix2 r k)) = _
    rw [hh k, meanBlock_row H r hr hh k]
    rfl
  have hlen : lenCol (ix2 r u) = lenW := broadcastInDim_scalar_apply bcast_S_S50000x1 _ (ix2 r u)
  have heps : epsCol (ix2 r u) = epsW := broadcastInDim_scalar_apply bcast_S_S50000x1 _ (ix2 r u)
  show Ideal.rsqrt (Ideal.div (broadcastInDim S50000x1 ![0] bcast_S50000_S50000x1_0 (rowSums (sqDev H)) (ix2 r u))
    (lenCol (ix2 r u)) + epsCol (ix2 r u)) = _
  rw [Cert.DenseRows.broadcastInDim_a_a1_apply _ bcast_S50000_S50000x1_0 r u, hsq, hlen, heps]
  rfl

/-- The reference's last stages, written over the value `H` that enters the normalisation. -/
def tailAt (H x0 : FVec Ideal S50000x128 .f32) (x9 x10 : FVec Ideal S128 .f32) : FVec Ideal S50000x128 .f32 :=
  addf (addf (mulf (mulf (subf H (meanBlock H))
      (broadcastInDim S50000x128 ![0, 1] bcast_S50000x1_S50000x128_0_1 (rsCol H)))
      (broadcastInDim S50000x128 ![0, 1] bcast_S1x128_S50000x128_0_1 (broadcastInDim S1x128 ![1] bcast_S128_S1x128_1 x9)))
    (broadcastInDim S50000x128 ![0, 1] bcast_S1x128_S50000x128_0_1 (broadcastInDim S1x128 ![1] bcast_S128_S1x128_1 x10)))
    x0

/-- At entry `(r, q)`, for a value whose row `r` is `hr`: the normalisation of `hr` at `q`, scaled and shifted by the two
    vectors at `q`, plus the residual entry. -/
theorem tailAt_apply (H x0 : FVec Ideal S50000x128 .f32) (x9 x10 : FVec Ideal S128 .f32) (r : Fin 50000) (q : Fin 128)
    (hr : Fin 128 → EReal) (hh : ∀ k, H (ix2 r k) = hr k) :
    tailAt H x0 x9 x10 (ix2 r q)
      = norm lenW epsW (fun c => x9 (ix1 c)) (fun c => x10 (ix1 c)) hr q + x0 (ix2 r q) := by
  show (H (ix2 r q) - meanBlock H (ix2 r q))
        * broadcastInDim S50000x128 ![0, 1] bcast_S50000x1_S50000x128_0_1 (rsCol H) (ix2 r q)
        * broadcastInDim S50000x128 ![0, 1] bcast_S1x128_S50000x128_0_1
            (broadcastInDim S1x128 ![1] bcast_S128_S1x128_1 x9) (ix2 r q)
      + broadcastInDim S50000x128 ![0, 1] bcast_S1x128_S50000x128_0_1
            (broadcastInDim S1x128 ![1] bcast_S128_S1x128_1 x10) (ix2 r q)
      + x0 (ix2 r q) = _
  rw [hh q, meanBlock_row H r hr hh q,
    Cert.DenseRows.broadcastInDim_a1_ab_apply (rsCol H) bcast_S50000x1_S50000x128_0_1 r q, rsCol_apply H r 0 hr hh,
    Cert.DenseRows.rowBias_inDim_apply x9 bcast_S128_S1x128_1 bcast_S1x128_S50000x128_0_1 r q,
    Cert.DenseRows.rowBias_inDim_apply x10 bcast_S128_S1x128_1 bcast_S1x128_S50000x128_0_1 r q]
  rfl

/-! ## The whole array -/

/-- The reference's result is the array `G` of the node features, the received features (however the program computes
    them: its own scatter of the edge features, left whole), the three weight matrices and the five vectors. -/
theorem ref_eq_G (x0 : FVec Ideal S50000x128 .f32) (x1 : (⟨S2x625000, .i32⟩ : BufTy).Contents (Elt Ideal))
    (x2 : FVec Ideal S625000x128 .f32) (x3 : FVec Ideal S256x128 .f32) (x4 : FVec Ideal S128 .f32)
    (x5 : FVec Ideal S128x128 .f32) (x6 : FVec Ideal S128 .f32) (x7 : FVec Ideal S128x128 .f32)
    (x8 x9 x10 : FVec Ideal S128 .f32) :
    val_main_v44 (F := Ideal) x0 x1 x2 x3 x4 x5 x6 x7 x8 x9 x10
      = G x0 (val_main_v4 (F := Ideal) x1 x2) x3 x4 x5 x6 x7 x8 x9 x10 := by
  have hE : val_main_v44 (F := Ideal) x0 x1 x2 x3 x4 x5 x6 x7 x8 x9 x10
      = tailAt (val_main_v19 (F := Ideal) x0 x1 x2 x3 x4 x5 x6 x7 x8) x0 x9 x10 := rfl
  funext i
  obtain ⟨r, q, rfl⟩ : ∃ (r : Fin 50000) (q : Fin 128), i = ix2 r q := ⟨i 0, i 1, eq_ix2 i⟩
  rw [hE, G_ix2]
  exact tailAt_apply _ x0 x9 x10 r q _ (fun k => v19_apply x0 x1 x2 x3 x4 x5 x6 x7 x8 r k)

end Cert.NodeUpdate.Reference

end
-- ==== Proof.lean ====
/-
  A graph network's node update: each node's features and the sum of the features of the edges it receives are laid side
  by side, sent through three dense layers (the rectifier after the first two), normalised along the row, scaled, shifted,
  and added back to the node's features.

  The kernel computes the received features on the host (a scatter of the edge features that adds into an array of zeros)
  and then works through the 50000 nodes in 25 blocks of 2000 rows; the reference does the same scatter and then treats
  all rows at once. On the extended reals a change of float format is the identity, a matrix product into a zero
  accumulator and the host's contraction are the same plain sum over the contracted columns, and a lane sum from the zero
  word and the host's sum from a zero constant are the same plain sum over a row (adding zero changes nothing). Every step
  after the scatter reads one row only. So both results are the one array `G` of `RowSpec`: entry `(r, q)` is the row
  function of row `r` of the node features and row `r` of the received features. The received features are never opened:
  the two programs compute them by the same operations in the same order, so they are one term. No law used here needs
  finite entries: sums are only re-read, never regrouped, and nothing is distributed or cancelled.

  The modules: `RowSpec` (the row function and `G`), `KernelRow` / `KernelNorm` (an entry of the block one grid point
  leaves), `Blocks` (the 25 blocks are the 25 row ranges of `G` and cover it), `RefRow` / `RefNorm` (the reference's
  result is `G`), and here the two runs side by side.
-/
import proofs.«173013_j22840636080715_1_alg».proof.Defs
import proofs.«173013_j22840636080715_1_alg».proof.Proof.Gen.Kernel
import proofs.«173013_j22840636080715_1_alg».proof.Proof.Gen.Kernel.Skeleton
import proofs.«173013_j22840636080715_1_alg».proof.Proof.Gen.Kernel.Launch
import proofs.«173013_j22840636080715_1_alg».proof.Proof.Gen.Kernel.Points
import proofs.«173013_j22840636080715_1_alg».proof.Proof.Gen.Kernel.Frame
import proofs.«173013_j22840636080715_1_alg».proof.Proof.Gen.KernelIdeal
import proofs.«173013_j22840636080715_1_alg».proof.Proof.Gen.KernelIdeal.Skeleton
import proofs.«173013_j22840636080715_1_alg».proof.Proof.Gen.KernelIdeal.Launch
import proofs.«173013_j22840636080715_1_alg».proof.Proof.Gen.KernelIdeal.Points
import proofs.«173013_j22840636080715_1_alg».proof.Proof.Gen.KernelIdeal.Frame
import proofs.«173013_j22840636080715_1_alg».proof.Proof.Gen.ReferenceIdeal
import proofs.«173013_j22840636080715_1_alg».proof.Proof.Gen.Pre_finite_inputs
import proofs.«173013_j22840636080715_1_alg».proof.Proof.Gen.KernelIdeal.Value
import proofs.«173013_j22840636080715_1_alg».proof.Proof.Gen.ReferenceIdeal.Run
import proofs.«173013_j22840636080715_1_alg».proof.Proof.Gen.ReferenceIdeal.Read
import proofs.«173013_j22840636080715_1_alg».proof.Proof.Blocks
import proofs.«173013_j22840636080715_1_alg».proof.Proof.RefNorm
import Idealize.ShloMosaic.Adequacy
import Idealize.ShloMosaic.Init

noncomputable section

namespace Cert.Proof

open Idealize.ShloMosaic Idealize.ShloMosaic.TcCoe Idealize.SL.Sem

/-! ## The three programs run and leave their arguments as they were -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The received features are one array -/

/-- Both programs compute the received features by the same operations in the same order: take row 1 of the edge list,
    make it a column of row numbers, and scatter the edge features into zeros, adding. The two terms are one. -/
theorem agg_same (a1 : (⟨Cert.KernelIdeal.S2x625000, .i32⟩ : BufTy).Contents (Elt Ideal))
    (a2 : FVec Ideal Cert.KernelIdeal.S625000x128 .f32) :
    Cert.NodeUpdate.Kernel.aggOf a1 a2 = Cert.ReferenceIdeal.Read.val_main_v4 (F := Ideal) a1 a2 := rfl

/-! ## The two results are the same array -/

/-- From memories that agree on the eleven arguments, the kernel's program ends with its result at `G` of the arguments
    (`Blocks`) and the reference ends with its result at `G` of the same arguments (`RefNorm`). -/
theorem algebraic : Cert.algebraic_KernelIdeal_ReferenceIdeal := by
  intro m ρ m' ρ' _ hagree
  refine ⟨_, Cert.NodeUpdate.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v44_eq, Cert.NodeUpdate.Reference.ref_eq_G,
    h0, h1, h2, h3, h4, h5, h6, h7, h8, h9, h10, ← agg_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
